-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S2x1x2048x2048 : Shape := ⟨4, ![2, 1, 2048, 2048]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel

variable [Facts]

def fn {F : FTy → Type} [FloatOps F] (main_arg0 : FVec F S2x12x2048x64 .f32) (main_arg1 : FVec F S2x12x2048x64 .f32) (main_arg2 : FVec F S2x12x2048x64 .f32) (main_arg3 : IVec S2x1x2048x2048 1) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2x12x2048x64 .f32 := Host.absf main_arg2
  let main_cst_2 : FVec F S_ .f32 := constant S_ .f32 0x7F800000#32
  let main_v10 : FVec F S2x12x2048x64 .f32 := broadcastInDim S2x12x2048x64 ![] bcast_S_S2x12x2048x64 main_cst_2
  let main_v11 : IVec S2x12x2048x64 1 := cmpf .olt main_v9 main_v10
  let main_c_3 : IVec S_ 1 := constantI S_ 1 1#1
  let main_v12 : IVec S_ 1 := (fun x v => Host.reduce IntOp.andi x v reducesTo_S2x12x2048x64_S_d0_1_2_3 h_S_) main_v11 main_c_3
  let main_v13 : IVec S_ 1 := andi main_v8 main_v12
  main_v13
-- ==== Kernel.lean ====
abbrev S2x12x2048x64 : Shape := ⟨4, ![2, 12, 2048, 64]⟩
abbrev S2x1x2048x2048 : Shape := ⟨4, ![2, 1, 2048, 2048]⟩
abbrev S2x12x2048x2048 : Shape := ⟨4, ![2, 12, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x1x2048x2048, .i1⟩
  | .hbm, ⟨4, _⟩ => ⟨S2x1x2048x2048, .i32⟩
  | .hbm, ⟨5, _⟩ => ⟨S2x12x2048x64, .f32⟩
  | .hbm, ⟨6, _⟩ => ⟨S2x12x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 12], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x12x2048x64.size a
  hwx0_0 : ∀ i : grid0.Coords, EltTy.bits .f32 = 32 ∨ (Rect.block (s := S2x12x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x12x2048x64.size a
  hwx0_1 : ∀ i : grid0.Coords, EltTy.bits .f32 = 32 ∨ (Rect.block (s := S2x12x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x12x2048x64.size a
  hwx0_2 : ∀ i : grid0.Coords, EltTy.bits .f32 = 32 ∨ (Rect.block (s := S2x12x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x1x2048x2048.size a
  hwx0_3 : ∀ i : grid0.Coords, EltTy.bits .i32 = 32 ∨ (Rect.block (s := S2x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x12x2048x64.size a
  hwx0_4 : ∀ i : grid0.Coords, EltTy.bits .f32 = 32 ∨ (Rect.block (s := S2x12x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x12x2048x2048.size a
  hwx0_5 : ∀ i : grid0.Coords, EltTy.bits .f32 = 32 ∨ (Rect.block (s := S2x12x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x12x2048x64 : Shape := ⟨4, ![2, 12, 2048, 64]⟩
abbrev S2x1x2048x2048 : Shape := ⟨4, ![2, 1, 2048, 2048]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x1x2048x2048, .i1⟩
  | .hbm, ⟨4, _⟩ => ⟨S2x12x2048x2048, .f32⟩
  | .hbm, ⟨5, _⟩ => ⟨S_, .f32⟩
  | .hbm, ⟨6, _⟩ => ⟨S2x12x2048x2048, .f32⟩
  | .hbm, ⟨7, _⟩ => ⟨S2x12x2048x2048, .f32⟩
  | .hbm, ⟨8, _⟩ => ⟨S_, .f32⟩
  | .hbm, ⟨9, _⟩ => ⟨S_, .f32⟩
  | .hbm, ⟨10, _⟩ => ⟨S2x12x2048x2048, .i1⟩
  | .hbm, ⟨11, _⟩ => ⟨S2x12x2048x2048, .f32⟩
  | .hbm, ⟨12, _⟩ => ⟨S2x12x2048x2048, .f32⟩
  | .hbm, ⟨13, _⟩ => ⟨S_, .f32⟩
  | .hbm, ⟨14, _⟩ => ⟨S2x12x2048, .f32⟩
  | .hbm, ⟨15, _⟩ => ⟨S_, .f32⟩
  | .hbm, ⟨16, _⟩ => ⟨S2x12x2048, .f32⟩
  | .hbm, ⟨17, _⟩ => ⟨S2x12x2048, .f32⟩
  | .hbm, ⟨18, _⟩ => ⟨S2x12x2048x1, .f32⟩
  | .hbm, ⟨19, _⟩ => ⟨S2x12x2048x2048, .f32⟩
  | .hbm, ⟨20, _⟩ => ⟨S2x12x2048x2048, .f32⟩
  | .hbm, ⟨21, _⟩ => ⟨S2x12x2048x2048, .f32⟩
  | .hbm, ⟨22, _⟩ => ⟨S_, .f32⟩
  | .hbm, ⟨23, _⟩ => ⟨S2x12x2048, .f32⟩
  | .hbm, ⟨24, _⟩ => ⟨S2x12x2048x1, .f32⟩
  | .hbm, ⟨25, _⟩ => ⟨S2x12x2048x2048, .f32⟩
  | .hbm, ⟨26, _⟩ => ⟨S2x12x2048x2048, .f32⟩
  | .hbm, ⟨27, _⟩ => ⟨S2x12x2048x64, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S2x12x2048x2048 : S_.BroadcastsInDim S2x12x2048x2048 (![] : Fin 0 → Fin S2x12x2048x2048.rank)
  bcast_S2x1x2048x2048_S2x12x2048x2048_0_1_2_3 : S2x1x2048x2048.BroadcastsInDim S2x12x2048x2048 (![0, 1, 2, 3] : Fin 4 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.MaskedAttention.lean ====
/-
  Masked scaled dot-product attention over the extended reals, one query row at a time.

  For a query row `q` (64 numbers), the key matrix `K` (2048 rows of 64) and a row of 2048 mask bits:
    score k   = -1e9 where the mask bit is set, else (Σ_d q d · K k d) · 1/8;
    rowMax    = the maximum of the 2048 scores, taken from -∞;
    expRow k  = exp (score k − rowMax);
    softRow k = expRow k / Σ_k' expRow k'                      (the attention probabilities of the row);
    ctxRow d  = Σ_k softRow k · V k d                           (the row of the context).
  `probArr` and `ctxArr` are these rows laid out over the arrays Q, K, V : [2, 12, 2048, 64] and the mask
  [2, 1, 2048, 2048]: batch b, head h and query position r pick the row of Q, the b-h slice of K and V, and the
  mask row (b, 0, r) shared by all twelve heads.
-/
import Idealize.ShloMosaic.PureOps.Ideal
import Idealize.ShloMosaic.Lib.ValueIdx

noncomputable section

open scoped BigOperators

namespace Cert.Attention

open Idealize.ShloMosaic Idealize.ShloMosaic.ValueIdx

/-- The array shapes: Q, K, V and the context; the mask; the probabilities. -/
abbrev SQ : Shape := ⟨4, ![2, 12, 2048, 64]⟩
abbrev SM : Shape := ⟨4, ![2, 1, 2048, 2048]⟩
abbrev SP : Shape := ⟨4, ![2, 12, 2048, 2048]⟩

/-- The masked, scaled scores of one query row against every key. -/
def scoreRow (q : Fin 64 → EReal) (K : Fin 2048 → Fin 64 → EReal) (msk : Fin 2048 → BitVec 1) : Fin 2048 → EReal :=
  fun k => Scalar.select (msk k) (Ideal.ofBits .f32 0xCE6E6B28#32)
    ((∑ d : Fin 64, q d * K k d) * Ideal.ofBits .f32 0x3E000000#32)

/-- The largest entry of a row, the maximum taken from -∞. -/
def rowMax (s : Fin 2048 → EReal) : EReal :=
  (Finset.univ : Finset (Fin 2048)).fold max (Ideal.ofBits .f32 0xFF800000#32) s

/-- The row shifted by its maximum and exponentiated. -/
def expRow (s : Fin 2048 → EReal) : Fin 2048 → EReal := fun k => Ideal.exp (s k - rowMax s)

/-- The softmax of a row: each exponential over the sum of them all. -/
def softRow (s : Fin 2048 → EReal) : Fin 2048 → EReal := fun k => Ideal.div (expRow s k) (∑ k' : Fin 2048, expRow s k')

/-- The attention probabilities of one query row. -/
def probRow (q : Fin 64 → EReal) (K : Fin 2048 → Fin 64 → EReal) (msk : Fin 2048 → BitVec 1) : Fin 2048 → EReal :=
  softRow (scoreRow q K msk)

/-- The context of one query row: the probabilities' combination of the value rows. -/
def ctxRow (q : Fin 64 → EReal) (K V : Fin 2048 → Fin 64 → EReal) (msk : Fin 2048 → BitVec 1) : Fin 64 → EReal :=
  fun d => ∑ k : Fin 2048, probRow q K msk k * V k d

/-- Row (b, h, r) of an array of shape [2, 12, 2048, 64]. -/
def rowOf (A : SQ.Idx → EReal) (b : Fin 2) (h : Fin 12) (r : Fin 2048) : Fin 64 → EReal := fun d => A (ix4 b h r d)
/-- Slice (b, h) of such an array, as a matrix of 2048 rows. -/
def matOf (A : SQ.Idx → EReal) (b : Fin 2) (h : Fin 12) : Fin 2048 → Fin 64 → EReal := fun k d => A (ix4 b h k d)
/-- Mask row (b, 0, r): one bit per key, the same for every head. -/
def maskOf (M : SM.Idx → BitVec 1) (b : Fin 2) (r : Fin 2048) : Fin 2048 → BitVec 1 := fun k => M (ix4 b (0 : Fin 1) r k)

/-- The attention probabilities as one array of shape [2, 12, 2048, 2048]. -/
def probArr (Q K : SQ.Idx → EReal) (M : SM.Idx → BitVec 1) : SP.Idx → EReal :=
  fun i => probRow (rowOf Q (i 0) (i 1) (i 2)) (matOf K (i 0) (i 1)) (maskOf M (i 0) (i 2)) (i 3)

/-- The context as one array of shape [2, 12, 2048, 64]. -/
def ctxArr (Q K V : SQ.Idx → EReal) (M : SM.Idx → BitVec 1) : SQ.Idx → EReal :=
  fun i => ctxRow (rowOf Q (i 0) (i 1) (i 2)) (matOf K (i 0) (i 1)) (matOf V (i 0) (i 1)) (maskOf M (i 0) (i 2)) (i 3)

theorem probArr_ix4 (Q K : SQ.Idx → EReal) (M : SM.Idx → BitVec 1) (b : Fin 2) (h : Fin 12) (r k : Fin 2048) :
    probArr Q K M (ix4 b h r k) = probRow (rowOf Q b h r) (matOf K b h) (maskOf M b r) k := rfl

theorem ctxArr_ix4 (Q K V : SQ.Idx → EReal) (M : SM.Idx → BitVec 1) (b : Fin 2) (h : Fin 12) (r : Fin 2048) (d : Fin 64) :
    ctxArr Q K V M (ix4 b h r d) = ctxRow (rowOf Q b h r) (matOf K b h) (matOf V b h) (maskOf M b r) d := rfl

/-- A maximum taken from -∞ is the other operand. -/
theorem max_negInf (y : EReal) : max (Ideal.ofBits .f32 0xFF800000#32) y = y := by
  simp [Ideal.ofBits, Ideal.ieee]

/-- A mask bit widened to a 32-bit word and tested against zero is the bit again. -/
theorem ne_zero_of_widened (x : BitVec 1) : IntOp.cmpi .ne (x.setWidth 32) 0#32 = x := by
  rcases BitVec.eq_zero_or_eq_one x with h | h <;> subst h <;> decide

end Cert.Attention

end
-- ==== Proof.ReferenceRows.lean ====
/-
  The reference, read one entry at a time, is the row-wise attention of MaskedAttention.lean.

  The host program computes, over the whole arrays at once: the batched product Q·Kᵀ, its scaling by 1/8, the
  select against the broadcast mask, the row maximum (a reduce from -∞, then a further maximum with -∞, which
  changes nothing), the shifted exponentials, their row sums, the quotient, and the batched product with V.
  Entry (b, h, r, k) of each stage depends only on row (b, h, r) of Q, slice (b, h) of K and V and mask row
  (b, 0, r): reading the stages at that entry gives `scoreRow`, `rowMax`, `expRow`, the row sum, `softRow` and
  `ctxRow` of those rows.
-/
import proofs.«106566_j6932077216063_2_alg».proof.Proof.Gen.ReferenceIdeal.Read
import proofs.«106566_j6932077216063_2_alg».proof.Proof.MaskedAttention
import Idealize.ShloMosaic.PureOps.Reduce

noncomputable section

open scoped BigOperators

namespace Cert.Attention.Reference

open Cert.ReferenceIdeal Cert.ReferenceIdeal.Gen Cert.ReferenceIdeal.Read Idealize.ShloMosaic Idealize.ShloMosaic.ValueIdx Cert.Attention

variable (x0 x1 x2 : (⟨S2x12x2048x64, .f32⟩ : BufTy).Contents (Elt Ideal)) (x3 : (⟨S2x1x2048x2048, .i1⟩ : BufTy).Contents (Elt Ideal))
variable (b : Fin 2) (h : Fin 12) (r : Fin 2048)

/-- The select's result at (b, h, r, k) is the masked scaled score of query row (b, h, r) against key k. -/
theorem score_at (k : Fin 2048) :
    val_main_v3 (F := Ideal) x0 x1 x3 (ix4 b h r k) = scoreRow (rowOf x0 b h r) (matOf x1 b h) (maskOf x3 b r) k := by
  have em : idx_main_call0_v1 (ix4 b h r k) = ix4 b (0 : Fin 1) r k :=
    funext fun a => Fin.ext (by match a with | ⟨0, _⟩ => rfl | ⟨1, _⟩ => rfl | ⟨2, _⟩ => rfl | ⟨3, _⟩ => rfl)
  have el : ∀ d : Fin 64, lidx_main_v0 (ix4 b h r k) d = ix4 b h r d := fun d =>
    funext fun a => Fin.ext (by match a with | ⟨0, _⟩ => rfl | ⟨1, _⟩ => rfl | ⟨2, _⟩ => rfl | ⟨3, _⟩ => rfl)
  have er : ∀ d : Fin 64, ridx_main_v0 (ix4 b h r k) d = ix4 b h k d := fun d =>
    funext fun a => Fin.ext (by match a with | ⟨0, _⟩ => rfl | ⟨1, _⟩ => rfl | ⟨2, _⟩ => rfl | ⟨3, _⟩ => rfl)
  rw [val_main_v3_apply, val_main_call0_v1_apply, val_main_call0_v2_apply, val_main_call0_v0_apply, val_main_cst_0_apply,
    val_main_v2_apply, val_main_v0_apply, val_main_v1_apply, val_main_cst_apply, em]
  simp only [el, er, Ideal.mulf_def, Ideal.ofBits_def]
  rfl

/-- Index (b, h, r) with coordinate k put back on the last axis is (b, h, r, k). -/
theorem lift_ix3 (hr : S2x12x2048x2048.Reduces [3] S2x12x2048) (k : Fin (S2x12x2048x2048.size 3)) :
    hr.lift (ix3 b h r) k = ix4 b h r (⟨k.val, k.isLt⟩ : Fin 2048) := by
  funext c; apply Fin.ext
  fin_cases c <;> rfl

/-- The row maximum at (b, h, r): the reduce from -∞ over the keys, and a further maximum with -∞. -/
theorem max_at :
    val_main_v6 (F := Ideal) x0 x1 x3 (ix3 b h r) = rowMax (scoreRow (rowOf x0 b h r) (matOf x1 b h) (maskOf x3 b r)) := by
  rw [val_main_v6_apply, val_main_v5_apply, val_main_cst_2_apply]
  simp only [Ideal.maximumf_def, Ideal.ofBits_def, max_negInf]
  unfold val_main_v4
  have hr : S2x12x2048x2048.Reduces [3] S2x12x2048 := by decide
  rw [Host.reduce_eq_fold_single FloatOps.maximumf _ _ reducesTo_S2x12x2048x2048_S2x12x2048_d3 hr h_S_]
  have hf : (val_main_v3 (F := Ideal) x0 x1 x3 ∘ hr.lift (ix3 b h r))
      = fun k : Fin 2048 => scoreRow (rowOf x0 b h r) (matOf x1 b h) (maskOf x3 b r) k :=
    funext fun k => (congrArg (val_main_v3 (F := Ideal) x0 x1 x3) (lift_ix3 b h r hr k)).trans (score_at x0 x1 x3 b h r _)
  exact congrArg (fun f => Finset.fold max (Ideal.ofBits .f32 0xFF800000#32) f (Finset.univ : Finset (Fin 2048))) hf

/-- The shifted exponential at (b, h, r, k). -/
theorem exp_at (k : Fin 2048) :
    val_main_v10 (F := Ideal) x0 x1 x3 (ix4 b h r k) = expRow (scoreRow (rowOf x0 b h r) (matOf x1 b h) (maskOf x3 b r)) k := by
  have e : idx_main_v7 (idx_main_v8 (ix4 b h r k)) = ix3 b h r :=
    funext fun a => Fin.ext (by match a with | ⟨0, _⟩ => rfl | ⟨1, _⟩ => rfl | ⟨2, _⟩ => rfl)
  rw [val_main_v10_apply, val_main_v9_apply, val_main_v8_apply, val_main_v7_apply, e, score_at, max_at]
  simp only [Ideal.hostUnary_exp_def, Ideal.subf_def]
  rfl

/-- The row sum of the exponentials at (b, h, r). -/
theorem sum_at :
    val_main_v11 (F := Ideal) x0 x1 x3 (ix3 b h r)
      = ∑ k : Fin 2048, expRow (scoreRow (rowOf x0 b h r) (matOf x1 b h) (maskOf x3 b r)) k := by
  rw [val_main_v11_apply, val_main_cst_3_apply]
  simp only [Ideal.ofBits_def, Ideal.ofBits_zero_f32, zero_add]
  refine Finset.sum_congr rfl fun k _ => ?_
  have e : idx_main_v11 (ix3 b h r) k = ix4 b h r k :=
    funext fun a => Fin.ext (by match a with | ⟨0, _⟩ => rfl | ⟨1, _⟩ => rfl | ⟨2, _⟩ => rfl | ⟨3, _⟩ => rfl)
  rw [e, exp_at]

/-- The probability at (b, h, r, k). -/
theorem prob_at (k : Fin 2048) :
    val_main_v14 (F := Ideal) x0 x1 x3 (ix4 b h r k) = probRow (rowOf x0 b h r) (matOf x1 b h) (maskOf x3 b r) k := by
  have e : idx_main_v12 (idx_main_v13 (ix4 b h r k)) = ix3 b h r :=
    funext fun a => Fin.ext (by match a with | ⟨0, _⟩ => rfl | ⟨1, _⟩ => rfl | ⟨2, _⟩ => rfl)
  rw [val_main_v14_apply, val_main_v13_apply, val_main_v12_apply, e, exp_at, sum_at]
  simp only [Ideal.hostDivf_def]
  rfl

/-- The context at (b, h, r, d). -/
theorem ctx_at (d : Fin 64) :
    val_main_v15 (F := Ideal) x0 x1 x2 x3 (ix4 b h r d)
      = ctxRow (rowOf x0 b h r) (matOf x1 b h) (matOf x2 b h) (maskOf x3 b r) d := by
  rw [val_main_v15_apply]
  refine Finset.sum_congr rfl fun k _ => ?_
  have el : lidx_main_v15 (ix4 b h r d) k = ix4 b h r k :=
    funext fun a => Fin.ext (by match a with | ⟨0, _⟩ => rfl | ⟨1, _⟩ => rfl | ⟨2, _⟩ => rfl | ⟨3, _⟩ => rfl)
  have er : ridx_main_v15 (ix4 b h r d) k = ix4 b h k d :=
    funext fun a => Fin.ext (by match a with | ⟨0, _⟩ => rfl | ⟨1, _⟩ => rfl | ⟨2, _⟩ => rfl | ⟨3, _⟩ => rfl)
  rw [el, er, prob_at]
  rfl

/-- The reference's second result is the array of attention probabilities. -/
theorem probs_eq : val_main_v14 (F := Ideal) x0 x1 x3 = probArr x0 x1 x3 := by
  funext i
  obtain ⟨b, h, r, k, rfl⟩ : ∃ (b : Fin 2) (h : Fin 12) (r k : Fin 2048), i = ix4 b h r k := ⟨i 0, i 1, i 2, i 3, eq_ix4 i⟩
  rw [prob_at, probArr_ix4]

/-- The reference's first result is the context array. -/
theorem context_eq : val_main_v15 (F := Ideal) x0 x1 x2 x3 = ctxArr x0 x1 x2 x3 := by
  funext i
  obtain ⟨b, h, r, d, rfl⟩ : ∃ (b : Fin 2) (h : Fin 12) (r : Fin 2048) (d : Fin 64), i = ix4 b h r d := ⟨i 0, i 1, i 2, i 3, eq_ix4 i⟩
  rw [ctx_at, ctxArr_ix4]

end Cert.Attention.Reference

end
-- ==== Proof.BlockRows.lean ====
/-
  What the kernel's body computes from its four loaded blocks, read one entry at a time.

  At a grid point the body holds a block of 512 query rows (as [1, 1, 512, 64]), the 2048 key rows and the 2048
  value rows of one batch and head (as [1, 1, 2048, 64]) and the 512 × 2048 mask words of those queries. It casts the
  unit axes away, multiplies queries by keys over the 64 features, scales by 1/8, puts -1e9 where the mask word
  is not zero, takes each row's maximum from -∞, exponentiates the shifted row, divides by the row's sum — the
  block of probabilities it stores — and multiplies that block by the values over the 2048 keys — the block of
  context it stores. Changes of float format are the identity over the extended reals.
  So entry (r, k) of the probabilities block is `probRow` of query row r, the key rows and mask row r, at k; entry
  (r, d) of the context block is `ctxRow` of those and the value rows, at d.
-/
import proofs.«106566_j6932077216063_2_alg».proof.Proof.Gen.KernelIdeal.Skeleton
import proofs.«106566_j6932077216063_2_alg».proof.Proof.MaskedAttention
import Idealize.ShloMosaic.Lib.Pipeline.Value
import Idealize.ShloMosaic.Lib.ValueIdx
import Idealize.ShloMosaic.PureOps.Ideal.Laws

noncomputable section

open scoped BigOperators

namespace Cert.Attention.Block

open Cert.KernelIdeal Cert.KernelIdeal.Gen Idealize.ShloMosaic Idealize.ShloMosaic.ValueIdx Cert.Attention

/-! ## Layout operations read at an entry -/

section Layout
variable {α : Type}

/-- A [1, 1, a, b] block with its unit axes cast away reads, at (r, c), the block at (0, 0, r, c). -/
theorem cast_11ab_ab {a b : ℕ} (x : (⟨4, ![1, 1, a, b]⟩ : Shape).Idx → α)
    (h : (⟨4, ![1, 1, a, b]⟩ : Shape).ShapeCasts ⟨2, ![a, b]⟩) (r : Fin a) (c : Fin b) :
    shapeCast ⟨2, ![a, b]⟩ x h (ix2 r c) = x (ix4 (0 : Fin 1) (0 : Fin 1) r c) :=
  shapeCast_apply x h _ _ (by
    rw [Shape.rowMajor_val_four, Shape.rowMajor_val_two]
    show ((0 * 1 + 0) * a + r.val) * b + c.val = r.val * b + c.val
    simp)

/-- An [a, b] matrix cast to a [1, 1, a, b] block reads, at (u, v, r, c), the matrix at (r, c). -/
theorem cast_ab_11ab {a b : ℕ} (x : (⟨2, ![a, b]⟩ : Shape).Idx → α)
    (h : (⟨2, ![a, b]⟩ : Shape).ShapeCasts ⟨4, ![1, 1, a, b]⟩) (u v : Fin 1) (r : Fin a) (c : Fin b) :
    shapeCast ⟨4, ![1, 1, a, b]⟩ x h (ix4 u v r c) = x (ix2 r c) :=
  shapeCast_apply x h _ _ (by
    have hu : u.val = 0 := by omega
    have hv : v.val = 0 := by omega
    rw [Shape.rowMajor_val_four, Shape.rowMajor_val_two]
    show r.val * b + c.val = ((u.val * 1 + v.val) * a + r.val) * b + c.val
    rw [hu, hv]; simp)

/-- A vector of a entries cast to a column [a, 1] reads, at (r, z), entry r. -/
theorem cast_a_a1 {a : ℕ} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz]; simp)

/-- A column [a, 1] broadcast along its rows to [a, b] reads, at (r, c), the column at (r, 0). -/
theorem bcast_a1_ab {a b : ℕ} (x : (⟨2, ![a, 1]⟩ : Shape).Idx → α) (h : (⟨2, ![a, 1]⟩ : Shape).Broadcasts ⟨2, ![a, b]⟩)
    (r : Fin a) (c : Fin b) : broadcastTo ⟨2, ![a, b]⟩ x h (ix2 r c) = x (ix2 r (0 : Fin 1)) := by
  refine broadcastTo_apply x h (ix2 r c) (ix2 r (0 : Fin 1)) fun ax => ?_
  match ax with
  | ⟨0, _⟩ =>
    show r.val = if a = 1 then 0 else r.val
    split
    · have := r.isLt; omega
    · rfl
  | ⟨1, _⟩ => rfl

/-- A per-row value kept as a column and broadcast along the row reads, at (r, c), the value of row r. -/
theorem column_at {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (r : Fin a) (c : Fin b) :
    broadcastTo ⟨2, ![a, b]⟩ (shapeCast ⟨2, ![a, 1]⟩ x h1) h2 (ix2 r c) = x (ix1 r) :=
  (bcast_a1_ab _ h2 r c).trans (cast_a_a1 x h1 r 0)

end Layout

/-! ## The two matrix products read at an entry -/

/-- The operands' coordinates in the queries-times-keys product: the left operand is read at (row of the result,
    contraction index), the right at (column of the result, contraction index). -/
theorem qk_lhs0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- Queries times keys, contracted over the 64 features: entry (r, k) is Σ_d lhs (r, d) · rhs (k, d). -/
theorem qk_at (lhs : FVec Ideal S512x64 .bf16) (rhs : FVec Ideal S2048x64 .bf16) (r : Fin 512) (k : Fin 2048) :
    matmul dot_S512x64_S2048x64_S512x2048_1_1_0_0_n_n none lhs rhs (constant S512x2048 .f32 0x00000000#32) (ix2 r k)
      = ∑ d : Fin 64, lhs (ix2 r d) * rhs (ix2 k d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 r k) ((contrEquiv1 dot_S512x64_S2048x64_S512x2048_1_1_0_0_n_n 64 rfl rfl).symm d) = ix2 r d := funext fun a => Fin.ext (by
    match a with
    | ⟨0, _⟩ => exact qk_lhs0 _ _
    | ⟨1, _⟩ => exact (qk_lhs1 _ _).trans hd)
  have er : dot_S512x64_S2048x64_S512x2048_1_1_0_0_n_n.rhsIdx (ix2 r k) ((contrEquiv1 dot_S512x64_S2048x64_S512x2048_1_1_0_0_n_n 64 rfl rfl).symm d) = ix2 k d := funext fun a => Fin.ext (by
    match a with
    | ⟨0, _⟩ => exact qk_rhs0 _ _
    | ⟨1, _⟩ => exact (qk_rhs1 _ _).trans hd)
  rw [el, er]

/-- The operands' coordinates in the probabilities-times-values product: the left operand is read at (row of the result,
    contraction index), the right at (contraction index, column of the result). -/
theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Probabilities times values, contracted over the 2048 keys: entry (r, d) is Σ_k lhs (r, k) · rhs (k, d). -/
theorem pv_at (lhs : FVec Ideal S512x2048 .bf16) (rhs : FVec Ideal S2048x64 .bf16) (r : Fin 512) (d : Fin 64) :
    matmul dot_S512x2048_S2048x64_S512x64_1_0_0_1_n_n none lhs rhs (constant S512x64 .f32 0x00000000#32) (ix2 r d)
      = ∑ k : Fin 2048, lhs (ix2 r k) * rhs (ix2 k d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact pv_lhs0 _ _
    | ⟨1, _⟩ => exact (pv_lhs1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (pv_rhs0 _ _).trans hk
    | ⟨1, _⟩ => exact pv_rhs1 _ _)
  rw [el, er]

/-! ## The row reductions read at a row -/

/-- Row r of a 512 × 2048 matrix with column k put back is entry (r, k). -/
theorem lift_ix1 (hr : S512x2048.Reduces [1] S512) (r : Fin 512) (k : Fin (S512x2048.size 1)) :
    hr.lift (ix1 r) k = ix2 r (⟨k.val, k.isLt⟩ : Fin 2048) := by
  funext c; apply Fin.ext
  fin_cases c <;> rfl

/-- The lane maximum of row r, from -∞. -/
theorem rowMax_at (s : FVec Ideal S512x2048 .f32) (hr : S512x2048.Reduces [1] S512) (hφ : FKind.Formats .f32)
    (hacc : (0xFF800000#32 : BitVec 32) = FKind.maximumf.neutral .f32 hφ) (r : Fin 512) :
    multiReduction .maximumf [1] S512 s 0xFF800000#32 hr hφ hacc (ix1 r) = rowMax (fun k => s (ix2 r k)) := by
  refine (Ideal.multiReduction_maximumf_single s 0xFF800000#32 hr hφ hacc (ix1 r)).trans ?_
  have hf : (s ∘ hr.lift (ix1 r)) = fun k : Fin 2048 => s (ix2 r k) := funext fun k => congrArg s (lift_ix1 hr r k)
  exact congrArg (fun f => Finset.fold max (Ideal.ofBits .f32 0xFF800000#32) f (Finset.univ : Finset (Fin 2048))) hf

/-- The lane sum of row r. -/
theorem rowSum_at (e : FVec Ideal S512x2048 .f32) (hr : S512x2048.Reduces [1] S512) (hφ : FKind.Formats .f32)
    (hacc : (0x00000000#32 : BitVec 32) = FKind.add.neutral .f32 hφ) (r : Fin 512) :
    multiReduction .add [1] S512 e 0x00000000#32 hr hφ hacc (ix1 r) = ∑ k : Fin 2048, e (ix2 r k) := by
  refine (Ideal.multiReduction_add_single e 0x00000000#32 hr hφ hacc (ix1 r)).trans ?_
  exact Finset.sum_congr rfl fun k _ => congrArg e (lift_ix1 hr r k)

/-! ## The body's stages -/

/-- The masked, scaled scores of the block, as the body computes them from the loaded blocks. -/
def scoresV (v0 : Vec Ideal S1x1x512x64 .f32) (v3 : Vec Ideal S1x1x2048x64 .f32) (v9 : Vec Ideal S1x1x512x2048 .i32) :
    FVec Ideal S512x2048 .f32 :=
  select (cmpi .ne (shapeCast S512x2048 v9 shapeCasts_S1x1x512x2048_S512x2048) (constantI S512x2048 32 0#32))
    (broadcast S512x2048 (Scalar.ofBits .f32 0xCE6E6B28#32))
    (mulf (matmul dot_S512x64_S2048x64_S512x2048_1_1_0_0_n_n none
        (truncf .bf16 (shapeCast S512x64 v0 shapeCasts_S1x1x512x64_S512x64) bitsLt_bf16_f32)
        (truncf .bf16 (shapeCast S2048x64 v3 shapeCasts_S1x1x2048x64_S2048x64) bitsLt_bf16_f32)
        (constant S512x2048 .f32 0x00000000#32))
      (broadcast S512x2048 (Scalar.ofBits .f32 0x3E000000#32)))

/-- The rows shifted by their maxima and exponentiated. -/
def expV (s : FVec Ideal S512x2048 .f32) : FVec Ideal S512x2048 .f32 :=
  exp (subf s (broadcastTo S512x2048 (shapeCast S512x1
    (multiReduction .maximumf [1] S512 s 0xFF800000#32 reduces_S512x2048_S512 (.inl rfl) rfl) shapeCasts_S512_S512x1)
    broadcasts_S512x1_S512x2048))

/-- The rows' softmax. -/
def softV (s : FVec Ideal S512x2048 .f32) : FVec Ideal S512x2048 .f32 :=
  divf (expV s) (broadcastTo S512x2048 (shapeCast S512x1
    (multiReduction .add [1] S512 (expV s) 0x00000000#32 reduces_S512x2048_S512 (.inl rfl) rfl) shapeCasts_S512_S512x1)
    broadcasts_S512x1_S512x2048)

/-- The body's probabilities are the softmax of its scores. -/
theorem pay3_eq (v0 : Vec Ideal S1x1x512x64 .f32) (v3 : Vec Ideal S1x1x2048x64 .f32) (v9 : Vec Ideal S1x1x512x2048 .i32) :
    k0_pay3 v0 v3 v9 = softV (scoresV v0 v3 v9) := rfl

/-- Query row r of the loaded block, the loaded key (or value) rows, and mask row r of the loaded words. -/
def qRow (v0 : Vec Ideal S1x1x512x64 .f32) (r : Fin 512) : Fin 64 → EReal := fun d => v0 (ix4 (0 : Fin 1) (0 : Fin 1) r d)
def kvMat (v3 : Vec Ideal S1x1x2048x64 .f32) : Fin 2048 → Fin 64 → EReal := fun k d => v3 (ix4 (0 : Fin 1) (0 : Fin 1) k d)
def mRow (v9 : Vec Ideal S1x1x512x2048 .i32) (r : Fin 512) : Fin 2048 → BitVec 1 :=
  fun k => IntOp.cmpi .ne (v9 (ix4 (0 : Fin 1) (0 : Fin 1) r k)) 0#32

theorem scoresV_at (v0 : Vec Ideal S1x1x512x64 .f32) (v3 : Vec Ideal S1x1x2048x64 .f32) (v9 : Vec Ideal S1x1x512x2048 .i32)
    (r : Fin 512) (k : Fin 2048) :
    scoresV v0 v3 v9 (ix2 r k) = scoreRow (qRow v0 r) (kvMat v3) (mRow v9 r) k := by
  have hm : shapeCast S512x2048 v9 shapeCasts_S1x1x512x2048_S512x2048 (ix2 r k) = v9 (ix4 (0 : Fin 1) (0 : Fin 1) r k) :=
    cast_11ab_ab v9 _ r k
  have hq : ∀ d : Fin 64, (truncf .bf16 (shapeCast S512x64 v0 shapeCasts_S1x1x512x64_S512x64) bitsLt_bf16_f32 : FVec Ideal S512x64 .bf16) (ix2 r d)
      = v0 (ix4 (0 : Fin 1) (0 : Fin 1) r d) := fun d => cast_11ab_ab v0 _ r d
  have hk : ∀ d : Fin 64, (truncf .bf16 (shapeCast S2048x64 v3 shapeCasts_S1x1x2048x64_S2048x64) bitsLt_bf16_f32 : FVec Ideal S2048x64 .bf16) (ix2 k d)
      = v3 (ix4 (0 : Fin 1) (0 : Fin 1) k d) := fun d => cast_11ab_ab v3 _ k d
  unfold scoresV scoreRow qRow kvMat mRow
  rw [select_apply, mulf_apply, qk_at]
  simp only [hq, hk]
  show Scalar.select (IntOp.cmpi .ne (shapeCast S512x2048 v9 shapeCasts_S1x1x512x2048_S512x2048 (ix2 r k)) 0#32) _ _ = _
  rw [hm]
  rfl

theorem expV_at (s : FVec Ideal S512x2048 .f32) (r : Fin 512) (k : Fin 2048) :
    expV s (ix2 r k) = expRow (fun k' => s (ix2 r k')) k := by
  have hm : broadcastTo S512x2048 (shapeCast S512x1
      (multiReduction .maximumf [1] S512 s 0xFF800000#32 reduces_S512x2048_S512 (.inl rfl) rfl) shapeCasts_S512_S512x1)
      broadcasts_S512x1_S512x2048 (ix2 r k) = rowMax (fun k' => s (ix2 r k')) :=
    (column_at _ shapeCasts_S512_S512x1 broadcasts_S512x1_S512x2048 r k).trans (rowMax_at s _ _ _ r)
  unfold expV expRow
  show Ideal.exp (s (ix2 r k) - _) = _
  rw [hm]

theorem softV_at (s : FVec Ideal S512x2048 .f32) (r : Fin 512) (k : Fin 2048) :
    softV s (ix2 r k) = softRow (fun k' => s (ix2 r k')) k := by
  have hs : broadcastTo S512x2048 (shapeCast S512x1
      (multiReduction .add [1] S512 (expV s) 0x00000000#32 reduces_S512x2048_S512 (.inl rfl) rfl) shapeCasts_S512_S512x1)
      broadcasts_S512x1_S512x2048 (ix2 r k) = ∑ k' : Fin 2048, expRow (fun k'' => s (ix2 r k'')) k' :=
    ((column_at _ shapeCasts_S512_S512x1 broadcasts_S512x1_S512x2048 r k).trans (rowSum_at (expV s) _ _ _ r)).trans
      (Finset.sum_congr rfl fun k' _ => expV_at s r k')
  unfold softV softRow
  show Ideal.div (expV s (ix2 r k)) _ = _
  rw [hs, expV_at]

/-- Entry (r, k) of the body's probabilities: the attention probabilities of query row r, at key k. -/
theorem prob_at (v0 : Vec Ideal S1x1x512x64 .f32) (v3 : Vec Ideal S1x1x2048x64 .f32) (v9 : Vec Ideal S1x1x512x2048 .i32)
    (r : Fin 512) (k : Fin 2048) :
    k0_pay3 v0 v3 v9 (ix2 r k) = probRow (qRow v0 r) (kvMat v3) (mRow v9 r) k := by
  rw [pay3_eq, softV_at]
  unfold probRow
  exact congrArg (fun s => softRow s k) (funext fun k' => scoresV_at v0 v3 v9 r k')

/-- Entry (u, v, r, k) of the stored probabilities block. -/
theorem probBlock_at (v0 : Vec Ideal S1x1x512x64 .f32) (v3 : Vec Ideal S1x1x2048x64 .f32) (v9 : Vec Ideal S1x1x512x2048 .i32)
    (u v : Fin 1) (r : Fin 512) (k : Fin 2048) :
    k0_pay4 v0 v3 v9 (ix4 u v r k) = probRow (qRow v0 r) (kvMat v3) (mRow v9 r) k :=
  (cast_ab_11ab (k0_pay3 v0 v3 v9) shapeCasts_S512x2048_S1x1x512x2048 u v r k).trans (prob_at v0 v3 v9 r k)

/-- Entry (u, v, r, d) of the stored context block. -/
theorem ctxBlock_at (v0 : Vec Ideal S1x1x512x64 .f32) (v3 v6 : Vec Ideal S1x1x2048x64 .f32) (v9 : Vec Ideal S1x1x512x2048 .i32)
    (u v : Fin 1) (r : Fin 512) (d : Fin 64) :
    k0_pay1 (k0_pay2 v6) (k0_pay5 v0 v3 v9) (ix4 u v r d) = ctxRow (qRow v0 r) (kvMat v3) (kvMat v6) (mRow v9 r) d := by
  have hv : ∀ k : Fin 2048, (k0_pay2 v6 : FVec Ideal S2048x64 .bf16) (ix2 k d) = v6 (ix4 (0 : Fin 1) (0 : Fin 1) k d) :=
    fun k => cast_11ab_ab v6 shapeCasts_S1x1x2048x64_S2048x64 k d
  have hp : ∀ k : Fin 2048, (k0_pay5 v0 v3 v9 : FVec Ideal S512x2048 .bf16) (ix2 r k) = probRow (qRow v0 r) (kvMat v3) (mRow v9 r) k :=
    fun k => prob_at v0 v3 v9 r k
  show shapeCast S1x1x512x64 (matmul dot_S512x2048_S2048x64_S512x64_1_0_0_1_n_n none (k0_pay5 v0 v3 v9) (k0_pay2 v6)
    (constant S512x64 .f32 0x00000000#32)) shapeCasts_S512x64_S1x1x512x64 (ix4 u v r d) = _
  refine (cast_ab_11ab _ shapeCasts_S512x64_S1x1x512x64 u v r d).trans ?_
  refine (pv_at (k0_pay5 v0 v3 v9) (k0_pay2 v6) r d).trans ?_
  unfold ctxRow
  refine Finset.sum_congr rfl fun k _ => ?_
  rw [hp k, hv k]
  try rfl

end Cert.Attention.Block

end
-- ==== Proof.WholeArrays.lean ====
/-
  From blocks to whole arrays: after the run the kernel's two result arrays are the context and the attention
  probabilities of MaskedAttention.lean, as functions of the argument arrays.

  The grid has 2 × 4 × 12 points (batch b, query tile qi, head h). At a point the query, context and probability
  windows sit at block (b, h, qi, 0) of their arrays, the key and value windows at block (b, h, 0, 0), the mask window
  at block (b, 0, qi, 0) of the mask words: row r of a query block is row qi·512 + r of the array, and the key, value
  and mask blocks span all 2048 keys. The mask words are the mask bits widened to 32 bits by the one host operation
  before the call, and the body tests them against zero, which gives the bits back. So what a point writes back is
  the block at (b, h, qi) of `probArr` (and of `ctxArr`) of the arguments; the 96 blocks tile each result array.
-/
import proofs.«106566_j6932077216063_2_alg».proof.Proof.Gen.KernelIdeal.Value
import proofs.«106566_j6932077216063_2_alg».proof.Proof.BlockRows
import proofs.«106566_j6932077216063_2_alg».proof.Proof.MaskedAttention
import Idealize.ShloMosaic.Lib.Pipeline.Value
import Idealize.ShloMosaic.Lib.StableHlo.Run

noncomputable section

namespace Cert.Attention.Kernel

open Cert.KernelIdeal Cert.KernelIdeal.Gen Idealize.ShloMosaic Idealize.ShloMosaic.TcCoe Idealize.SL.Sem
open Idealize.ShloMosaic.ValueIdx Cert.Attention Cert.Attention.Block
open Idealize.ShloMosaic.Pipeline (Dat)

variable (m : (ℓ : Loc nD τ sig) → Buf (Elt Ideal) ℓ) (ρ : Dev nD → PrngReg)

/-! ## Where each window sits at a grid point (decided over the 96 points) -/

theorem hz : (![0, 0, 0, 0] : Fin 4 → Nat) = fun _ => 0 := funext fun a => by fin_cases a <;> rfl

/-- The probability window's block index is (b, h, qi, 0) with b < 2, h < 12, qi < 4. -/
theorem idx5_range : ∀ t : Fin cfg0.N, win0_5.index t (0 : Fin 4) < 2 ∧ win0_5.index t (1 : Fin 4) < 12
    ∧ win0_5.index t (2 : Fin 4) < 4 ∧ win0_5.index t (3 : Fin 4) = 0 :=
  (by decide +kernel : ∀ t : Fin grid0.N, _)

/-- The query and context windows sit at the same block index as the probability window. -/
theorem idx0_eq : ∀ (t : Fin cfg0.N) (a : Fin 4), win0_0.index t a = win0_5.index t a :=
  (by decide +kernel : ∀ (t : Fin grid0.N) (a : Fin 4), _)
theorem idx4_eq : ∀ (t : Fin cfg0.N) (a : Fin 4), win0_4.index t a = win0_5.index t a :=
  (by decide +kernel : ∀ (t : Fin grid0.N) (a : Fin 4), _)

/-- The key and value windows sit at block (b, h, 0, 0). -/
theorem idx1_eq : ∀ t : Fin cfg0.N, win0_1.index t (0 : Fin 4) = win0_5.index t (0 : Fin 4)
    ∧ win0_1.index t (1 : Fin 4) = win0_5.index t (1 : Fin 4) ∧ win0_1.index t (2 : Fin 4) = 0 ∧ win0_1.index t (3 : Fin 4) = 0 :=
  (by decide +kernel : ∀ t : Fin grid0.N, _)
theorem idx2_eq : ∀ t : Fin cfg0.N, win0_2.index t (0 : Fin 4) = win0_5.index t (0 : Fin 4)
    ∧ win0_2.index t (1 : Fin 4) = win0_5.index t (1 : Fin 4) ∧ win0_2.index t (2 : Fin 4) = 0 ∧ win0_2.index t (3 : Fin 4) = 0 :=
  (by decide +kernel : ∀ t : Fin grid0.N, _)

/-- The mask window sits at block (b, 0, qi, 0). -/
theorem idx3_eq : ∀ t : Fin cfg0.N, win0_3.index t (0 : Fin 4) = win0_5.index t (0 : Fin 4)
    ∧ win0_3.index t (1 : Fin 4) = 0 ∧ win0_3.index t (2 : Fin 4) = win0_5.index t (2 : Fin 4) ∧ win0_3.index t (3 : Fin 4) = 0 :=
  (by decide +kernel : ∀ t : Fin grid0.N, _)

/-- Every (b, h, qi) is some point's block. -/
theorem idx5_onto : ∀ (q0 : Fin 2) (q1 : Fin 12) (q2 : Fin 4), ∃ t : Fin cfg0.N, win0_5.index t = ![q0.val, q1.val, q2.val, 0] :=
  (by decide +kernel : ∀ (q0 : Fin 2) (q1 : Fin 12) (q2 : Fin 4), ∃ t : Fin grid0.N, win0_5.index t = ![q0.val, q1.val, q2.val, 0])

/-- Row r of query tile qi is row qi·512 + r of the array. -/
def rowAt (qi : Fin 4) (r : Fin 512) : Fin 2048 := ⟨qi.val * 512 + r.val, by have := qi.isLt; have := r.isLt; omega⟩

/-! ## The mask words the region finds -/

/-- The one host operation before the call widens each mask bit to a 32-bit word. -/
theorem mask_words (c : Dev nD) :
    (V m c main_v0 : S2x1x2048x2048.Idx → BitVec 32) = extui 32 (m ((c : Thread nD τ).loc main_arg3)) natLt_1_32 := by
  dsimp only [Gen.V, Gen.hostOps0]; after_results

/-! ## The input blocks read at an entry -/

section Reads
variable (c : Dev nD) (t : Fin cfg0.N) (b : Fin 2) (h : Fin 12) (qi : Fin 4)
  (h0 : win0_5.index t (0 : Fin 4) = b.val) (h1 : win0_5.index t (1 : Fin 4) = h.val) (h2 : win0_5.index t (2 : Fin 4) = qi.val)

include h0 h1 h2

theorem readQ (u v : Fin 1) (r : Fin 512) (d : Fin 64) :
    iblk m c 0 t (ix4 u v r d) = m ((c : Thread nD τ).loc main_arg0) (ix4 b h (rowAt qi r) d) := by
  show V m c main_arg0 (((cfg0.win 0).blk t).view.emb (ix4 u v r d)) = _
  rw [V_main_arg0]
  refine congrArg (m ((c : Thread nD τ).loc main_arg0)) (funext fun a => Fin.ext ?_)
  have e := idx0_eq t
  have h3 := (idx5_range t).2.2.2
  have hu := u.isLt; have hv := v.isLt
  match a with
  | ⟨0, _⟩ => show win0_0.index t (0 : Fin 4) * 1 + 1 * u.val = b.val; rw [e 0, h0]; omega
  | ⟨1, _⟩ => show win0_0.index t (1 : Fin 4) * 1 + 1 * v.val = h.val; rw [e 1, h1]; omega
  | ⟨2, _⟩ => show win0_0.index t (2 : Fin 4) * 512 + 1 * r.val = qi.val * 512 + r.val; rw [e 2, h2]; omega
  | ⟨3, _⟩ => show win0_0.index t (3 : Fin 4) * 64 + 1 * d.val = d.val; rw [e 3, h3]; omega

theorem readK (u v : Fin 1) (k : Fin 2048) (d : Fin 64) :
    iblk m c 1 t (ix4 u v k d) = m ((c : Thread nD τ).loc main_arg1) (ix4 b h k d) := by
  show V m c main_arg1 (((cfg0.win 1).blk t).view.emb (ix4 u v k d)) = _
  rw [V_main_arg1]
  refine congrArg (m ((c : Thread nD τ).loc main_arg1)) (funext fun a => Fin.ext ?_)
  obtain ⟨e0, e1, e2, e3⟩ := idx1_eq t
  have hu := u.isLt; have hv := v.isLt
  match a with
  | ⟨0, _⟩ => show win0_1.index t (0 : Fin 4) * 1 + 1 * u.val = b.val; rw [e0, h0]; omega
  | ⟨1, _⟩ => show win0_1.index t (1 : Fin 4) * 1 + 1 * v.val = h.val; rw [e1, h1]; omega
  | ⟨2, _⟩ => show win0_1.index t (2 : Fin 4) * 2048 + 1 * k.val = k.val; rw [e2]; omega
  | ⟨3, _⟩ => show win0_1.index t (3 : Fin 4) * 64 + 1 * d.val = d.val; rw [e3]; omega

theorem readV (u v : Fin 1) (k : Fin 2048) (d : Fin 64) :
    iblk m c 2 t (ix4 u v k d) = m ((c : Thread nD τ).loc main_arg2) (ix4 b h k d) := by
  show V m c main_arg2 (((cfg0.win 2).blk t).view.emb (ix4 u v k d)) = _
  rw [V_main_arg2]
  refine congrArg (m ((c : Thread nD τ).loc main_arg2)) (funext fun a => Fin.ext ?_)
  obtain ⟨e0, e1, e2, e3⟩ := idx2_eq t
  have hu := u.isLt; have hv := v.isLt
  match a with
  | ⟨0, _⟩ => show win0_2.index t (0 : Fin 4) * 1 + 1 * u.val = b.val; rw [e0, h0]; omega
  | ⟨1, _⟩ => show win0_2.index t (1 : Fin 4) * 1 + 1 * v.val = h.val; rw [e1, h1]; omega
  | ⟨2, _⟩ => show win0_2.index t (2 : Fin 4) * 2048 + 1 * k.val = k.val; rw [e2]; omega
  | ⟨3, _⟩ => show win0_2.index t (3 : Fin 4) * 64 + 1 * d.val = d.val; rw [e3]; omega

theorem readM (u v : Fin 1) (r : Fin 512) (k : Fin 2048) :
    iblk m c 3 t (ix4 u v r k) = (m ((c : Thread nD τ).loc main_arg3) (ix4 b (0 : Fin 1) (rowAt qi r) k)).setWidth 32 := by
  show (V m c main_v0 : S2x1x2048x2048.Idx → BitVec 32) (((cfg0.win 3).blk t).view.emb (ix4 u v r k)) = _
  rw [mask_words]
  show (m ((c : Thread nD τ).loc main_arg3) (((cfg0.win 3).blk t).view.emb (ix4 u v r k))).setWidth 32 = _
  refine congrArg (fun i => (m ((c : Thread nD τ).loc main_arg3) i).setWidth 32) (funext fun a => Fin.ext ?_)
  obtain ⟨e0, e1, e2, e3⟩ := idx3_eq t
  have hu := u.isLt; have hv := v.isLt
  match a with
  | ⟨0, _⟩ => show win0_3.index t (0 : Fin 4) * 1 + 1 * u.val = b.val; rw [e0, h0]; omega
  | ⟨1, _⟩ => show win0_3.index t (1 : Fin 4) * 1 + 1 * v.val = 0; rw [e1]; omega
  | ⟨2, _⟩ => show win0_3.index t (2 : Fin 4) * 512 + 1 * r.val = qi.val * 512 + r.val; rw [e2, h2]; omega
  | ⟨3, _⟩ => show win0_3.index t (3 : Fin 4) * 2048 + 1 * k.val = k.val; rw [e3]; omega

/-- The rows the body works on at this point are rows of the argument arrays. -/
theorem qRow_eq (r : Fin 512) : qRow (iblk m c 0 t) r = rowOf (m ((c : Thread nD τ).loc main_arg0)) b h (rowAt qi r) :=
  funext fun d => readQ m c t b h qi h0 h1 h2 0 0 r d
theorem kMat_eq : kvMat (iblk m c 1 t) = matOf (m ((c : Thread nD τ).loc main_arg1)) b h :=
  funext fun k => funext fun d => readK m c t b h qi h0 h1 h2 0 0 k d
theorem vMat_eq : kvMat (iblk m c 2 t) = matOf (m ((c : Thread nD τ).loc main_arg2)) b h :=
  funext fun k => funext fun d => readV m c t b h qi h0 h1 h2 0 0 k d
theorem mRow_eq (r : Fin 512) : mRow (iblk m c 3 t) r = maskOf (m ((c : Thread nD τ).loc main_arg3)) b (rowAt qi r) :=
  funext fun k => by
    unfold mRow maskOf
    rw [readM m c t b h qi h0 h1 h2 0 0 r k]
    exact ne_zero_of_widened _

end Reads

/-! ## What a point writes back -/

/-- The probabilities block at a point is that block of `probArr` of the arguments. -/
theorem probs_point (c : Dev nD) (t : Fin cfg0.N) (y : S1x1x512x2048.Idx) :
    k0_pay4 (iblk m c 0 t) (iblk m c 1 t) (iblk m c 3 t) y
      = probArr (m ((c : Thread nD τ).loc main_arg0)) (m ((c : Thread nD τ).loc main_arg1)) (m ((c : Thread nD τ).loc main_arg3))
          (((cfg0.win 5).blk t).view.emb y) := by
  obtain ⟨hb, hh, hq, h3⟩ := idx5_range t
  obtain ⟨u, v, r, k, rfl⟩ : ∃ (u v : Fin 1) (r : Fin 512) (k : Fin 2048), y = ix4 u v r k := ⟨y 0, y 1, y 2, y 3, eq_ix4 y⟩
  have hemb : ((cfg0.win 5).blk t).view.emb (ix4 u v r k)
      = ix4 (⟨win0_5.index t (0 : Fin 4), hb⟩ : Fin 2) (⟨win0_5.index t (1 : Fin 4), hh⟩ : Fin 12)
          (rowAt ⟨win0_5.index t (2 : Fin 4), hq⟩ r) k := funext fun a => Fin.ext (by
    have hu := u.isLt; have hv := v.isLt
    match a with
    | ⟨0, _⟩ => show win0_5.index t (0 : Fin 4) * 1 + 1 * u.val = win0_5.index t (0 : Fin 4); omega
    | ⟨1, _⟩ => show win0_5.index t (1 : Fin 4) * 1 + 1 * v.val = win0_5.index t (1 : Fin 4); omega
    | ⟨2, _⟩ => show win0_5.index t (2 : Fin 4) * 512 + 1 * r.val = win0_5.index t (2 : Fin 4) * 512 + r.val; omega
    | ⟨3, _⟩ => show win0_5.index t (3 : Fin 4) * 2048 + 1 * k.val = k.val; omega)
  refine (probBlock_at (iblk m c 0 t) (iblk m c 1 t) (iblk m c 3 t) u v r k).trans ?_
  rw [hemb, probArr_ix4, qRow_eq m c t (⟨win0_5.index t (0 : Fin 4), hb⟩ : Fin 2) (⟨win0_5.index t (1 : Fin 4), hh⟩ : Fin 12) (⟨win0_5.index t (2 : Fin 4), hq⟩ : Fin 4) rfl rfl rfl r, kMat_eq m c t (⟨win0_5.index t (0 : Fin 4), hb⟩ : Fin 2) (⟨win0_5.index t (1 : Fin 4), hh⟩ : Fin 12) (⟨win0_5.index t (2 : Fin 4), hq⟩ : Fin 4) rfl rfl rfl, mRow_eq m c t (⟨win0_5.index t (0 : Fin 4), hb⟩ : Fin 2) (⟨win0_5.index t (1 : Fin 4), hh⟩ : Fin 12) (⟨win0_5.index t (2 : Fin 4), hq⟩ : Fin 4) rfl rfl rfl r]

/-- The context block at a point is that block of `ctxArr` of the arguments. -/
theorem ctx_point (c : Dev nD) (t : Fin cfg0.N) (y : S1x1x512x64.Idx) :
    k0_pay1 (k0_pay2 (iblk m c 2 t)) (k0_pay5 (iblk m c 0 t) (iblk m c 1 t) (iblk m c 3 t)) y
      = ctxArr (m ((c : Thread nD τ).loc main_arg0)) (m ((c : Thread nD τ).loc main_arg1)) (m ((c : Thread nD τ).loc main_arg2))
          (m ((c : Thread nD τ).loc main_arg3)) (((cfg0.win 4).blk t).view.emb y) := by
  obtain ⟨hb, hh, hq, h3⟩ := idx5_range t
  have e4 := idx4_eq t
  obtain ⟨u, v, r, d, rfl⟩ : ∃ (u v : Fin 1) (r : Fin 512) (d : Fin 64), y = ix4 u v r d := ⟨y 0, y 1, y 2, y 3, eq_ix4 y⟩
  have hemb : ((cfg0.win 4).blk t).view.emb (ix4 u v r d)
      = ix4 (⟨win0_5.index t (0 : Fin 4), hb⟩ : Fin 2) (⟨win0_5.index t (1 : Fin 4), hh⟩ : Fin 12)
          (rowAt ⟨win0_5.index t (2 : Fin 4), hq⟩ r) d := funext fun a => Fin.ext (by
    have hu := u.isLt; have hv := v.isLt
    match a with
    | ⟨0, _⟩ => show win0_4.index t (0 : Fin 4) * 1 + 1 * u.val = win0_5.index t (0 : Fin 4); rw [e4 0]; omega
    | ⟨1, _⟩ => show win0_4.index t (1 : Fin 4) * 1 + 1 * v.val = win0_5.index t (1 : Fin 4); rw [e4 1]; omega
    | ⟨2, _⟩ => show win0_4.index t (2 : Fin 4) * 512 + 1 * r.val = win0_5.index t (2 : Fin 4) * 512 + r.val; rw [e4 2]; omega
    | ⟨3, _⟩ => show win0_4.index t (3 : Fin 4) * 64 + 1 * d.val = d.val; rw [e4 3]; omega)
  refine (ctxBlock_at (iblk m c 0 t) (iblk m c 1 t) (iblk m c 2 t) (iblk m c 3 t) u v r d).trans ?_
  rw [hemb, ctxArr_ix4, qRow_eq m c t (⟨win0_5.index t (0 : Fin 4), hb⟩ : Fin 2) (⟨win0_5.index t (1 : Fin 4), hh⟩ : Fin 12) (⟨win0_5.index t (2 : Fin 4), hq⟩ : Fin 4) rfl rfl rfl r, kMat_eq m c t (⟨win0_5.index t (0 : Fin 4), hb⟩ : Fin 2) (⟨win0_5.index t (1 : Fin 4), hh⟩ : Fin 12) (⟨win0_5.index t (2 : Fin 4), hq⟩ : Fin 4) rfl rfl rfl, vMat_eq m c t (⟨win0_5.index t (0 : Fin 4), hb⟩ : Fin 2) (⟨win0_5.index t (1 : Fin 4), hh⟩ : Fin 12) (⟨win0_5.index t (2 : Fin 4), hq⟩ : Fin 4) rfl rfl rfl,
    mRow_eq m c t (⟨win0_5.index t (0 : Fin 4), hb⟩ : Fin 2) (⟨win0_5.index t (1 : Fin 4), hh⟩ : Fin 12) (⟨win0_5.index t (2 : Fin 4), hq⟩ : Fin 4) rfl rfl rfl r]

theorem flushed5_eq (c : Dev nD) (t : Fin cfg0.N) :
    (dats m 0 c).flushed 5 t = ((cfg0.win 5).blk t).view.read (Elt Ideal)
      (probArr (m ((c : Thread nD τ).loc main_arg0)) (m ((c : Thread nD τ).loc main_arg1)) (m ((c : Thread nD τ).loc main_arg3))) := by
  rw [Cert.KernelIdeal.Value.flushed5]
  unfold out0_5
  rw [View.canon_unit_zero hz]
  simp only [View.ld_unit_zero (S := S1x1x512x64) hz, View.ld_unit_zero (S := S1x1x2048x64) hz, View.ld_unit_zero (S := S1x1x512x2048) hz]
  funext y
  exact probs_point m c t y

theorem flushed4_eq (c : Dev nD) (t : Fin cfg0.N) :
    (dats m 0 c).flushed 4 t = ((cfg0.win 4).blk t).view.read (Elt Ideal)
      (ctxArr (m ((c : Thread nD τ).loc main_arg0)) (m ((c : Thread nD τ).loc main_arg1)) (m ((c : Thread nD τ).loc main_arg2))
        (m ((c : Thread nD τ).loc main_arg3))) := by
  rw [Cert.KernelIdeal.Value.flushed4]
  unfold out0_4
  rw [View.canon_unit_zero hz]
  simp only [View.ld_unit_zero (S := S1x1x512x64) hz, View.ld_unit_zero (S := S1x1x2048x64) hz, View.ld_unit_zero (S := S1x1x512x2048) hz]
  funext y
  exact ctx_point m c t y

/-! ## The blocks tile the result arrays -/

theorem mem_blk5 (t : Fin cfg0.N) (i : S2x12x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v1_1).slice (win0_5.rect t)).set ↔ _
  rw [View.set_slice_whole, Rect.mem_set_unit]
  exact Iff.rfl

theorem mem_blk4 (t : Fin cfg0.N) (i : S2x12x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v1_0).slice (win0_4.rect t)).set ↔ _
  rw [View.set_slice_whole, Rect.mem_set_unit]
  exact Iff.rfl

/-- Every entry of the probabilities array lies in the block of the point (b, row / 512, h). -/
theorem cover5 (i : S2x12x2048x2048.Idx) :
    ∃ t : Fin cfg0.N, (cfg0.win 5).flush t = true ∧ i ∈ ((cfg0.win 5).blk t).view.set := by
  have hi0 : (i 0).val < 2 := (i 0).isLt
  have hi1 : (i 1).val < 12 := (i 1).isLt
  have hi2 : (i 2).val < 2048 := (i 2).isLt
  have hi3 : (i 3).val < 2048 := (i 3).isLt
  obtain ⟨t, ht⟩ := idx5_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every entry of the context array lies in the block of the point (b, row / 512, h). -/
theorem cover4 (i : S2x12x2048x64.Idx) :
    ∃ t : Fin cfg0.N, (cfg0.win 4).flush t = true ∧ i ∈ ((cfg0.win 4).blk t).view.set := by
  have hi0 : (i 0).val < 2 := (i 0).isLt
  have hi1 : (i 1).val < 12 := (i 1).isLt
  have hi2 : (i 2).val < 2048 := (i 2).isLt
  have hi3 : (i 3).val < 64 := (i 3).isLt
  obtain ⟨t, ht⟩ := idx5_onto ⟨(i 0).val, hi0⟩ ⟨(i 1).val, hi1⟩ ⟨(i 2).val / 512, by omega⟩
  have e4 := idx4_eq t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; rw [e4 0]; omega
  | ⟨1, _⟩ => show win0_4.index t (1 : Fin 4) * 1 ≤ (i 1).val ∧ (i 1).val < win0_4.index t (1 : Fin 4) * 1 + 1; rw [e4 1]; omega
  | ⟨2, _⟩ => show win0_4.index t (2 : Fin 4) * 512 ≤ (i 2).val ∧ (i 2).val < win0_4.index t (2 : Fin 4) * 512 + 512; rw [e4 2]; omega
  | ⟨3, _⟩ => show win0_4.index t (3 : Fin 4) * 64 ≤ (i 3).val ∧ (i 3).val < win0_4.index t (3 : Fin 4) * 64 + 64; rw [e4 3]; omega

/-! ## The result arrays, and the run -/

/-- After the run the second result array is the attention probabilities of the arguments. -/
theorem probs_final (c : Dev nD) : (dats m 0 c).arrAt 5 cfg0.N
    = probArr (m ((c : Thread nD τ).loc main_arg0)) (m ((c : Thread nD τ).loc main_arg1)) (m ((c : Thread nD τ).loc main_arg3)) :=
  (dats m 0 c).arrAt_eq_of_cover 5 _ (fun t _ => flushed5_eq m c t) cover5

/-- After the run the first result array is the context of the arguments. -/
theorem ctx_final (c : Dev nD) : (dats m 0 c).arrAt 4 cfg0.N
    = ctxArr (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4_eq m c t) cover4

/-- Every weakly fair execution of the idealized kernel's program terminates with its results at the context and the
    attention probabilities of its arguments, the arguments unchanged. -/
theorem run : θ_run defs (onTc (τ := τ) (main (F := Ideal))) ⟨m, fun _ => 0, ρ⟩ fun r => ∀ c : Dev nD,
      r.2.mem ((c : Thread nD τ).loc main_v1_0) = ctxArr (m ((c : Thread nD τ).loc main_arg0)) (m ((c : Thread nD τ).loc main_arg1))
          (m ((c : Thread nD τ).loc main_arg2)) (m ((c : Thread nD τ).loc main_arg3))
      ∧ r.2.mem ((c : Thread nD τ).loc main_v1_1) = probArr (m ((c : Thread nD τ).loc main_arg0)) (m ((c : Thread nD τ).loc main_arg1))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (ctx_final m c), (h c).2.1.trans (probs_final m c), (h c).2.2⟩)
    (Cert.KernelIdeal.Value.run_blocks m ρ)

end Cert.Attention.Kernel

end
-- ==== Proof.lean ====
/-
  Masked scaled dot-product attention: a tiled kernel against the whole-array formula, over the extended reals.

  Both programs take Q, K, V : [2, 12, 2048, 64] and a mask [2, 1, 2048, 2048] of bits and return the context
  [2, 12, 2048, 64] and the attention probabilities [2, 12, 2048, 2048]. For batch b, head h and query position r:
    score k = -1e9 where mask (b, 0, r, k) is set, else (Σ_d Q (b,h,r,d) · K (b,h,k,d)) · 1/8;
    prob k  = exp (score k − max_k' score k') / Σ_k' exp (score k' − max score);
    ctx d   = Σ_k prob k · V (b,h,k,d).
  The kernel works on 96 grid points (b, query tile of 512 rows, h): it loads the tile's queries, all keys and values
  of (b, h) and the tile's mask rows — widened to 32-bit words by a host operation before the call and tested against
  zero in the body —, forms the 512 × 2048 scores by one matrix product, takes row maxima and row sums along lanes,
  stores the probabilities tile and its product with the values. The reference does the same on whole arrays with two
  batched products and reductions over the last axis, and takes one more maximum with -∞ that changes nothing.
  Over the extended reals a change of float format is the identity and both matrix products are plain finite
  sums, so the two programs compute the same rows (MaskedAttention.lean): the reference stage by stage
  (ReferenceRows.lean), the kernel's body entry by entry (BlockRows.lean) and its 96 written-back blocks tiling the
  two result arrays (WholeArrays.lean). No law used here needs the inputs finite: the sums, maxima, exponentials
  and quotients are the same operations of the same operands on both sides. The idealization rewrote nothing in
  the kernel, so its preservation claim is trivial.
-/
import proofs.«106566_j6932077216063_2_alg».proof.Defs
import proofs.«106566_j6932077216063_2_alg».proof.Proof.Gen.Kernel
import proofs.«106566_j6932077216063_2_alg».proof.Proof.Gen.Kernel.Skeleton
import proofs.«106566_j6932077216063_2_alg».proof.Proof.Gen.Kernel.Launch
import proofs.«106566_j6932077216063_2_alg».proof.Proof.Gen.Kernel.Points
import proofs.«106566_j6932077216063_2_alg».proof.Proof.Gen.Kernel.Frame
import proofs.«106566_j6932077216063_2_alg».proof.Proof.Gen.KernelIdeal
import proofs.«106566_j6932077216063_2_alg».proof.Proof.Gen.KernelIdeal.Skeleton
import proofs.«106566_j6932077216063_2_alg».proof.Proof.Gen.KernelIdeal.Launch
import proofs.«106566_j6932077216063_2_alg».proof.Proof.Gen.KernelIdeal.Points
import proofs.«106566_j6932077216063_2_alg».proof.Proof.Gen.KernelIdeal.Frame
import proofs.«106566_j6932077216063_2_alg».proof.Proof.Gen.ReferenceIdeal
import proofs.«106566_j6932077216063_2_alg».proof.Proof.Gen.Pre_finite_inputs
import proofs.«106566_j6932077216063_2_alg».proof.Proof.Gen.KernelIdeal.Value
import proofs.«106566_j6932077216063_2_alg».proof.Proof.Gen.ReferenceIdeal.Run
import proofs.«106566_j6932077216063_2_alg».proof.Proof.Gen.ReferenceIdeal.Read
import proofs.«106566_j6932077216063_2_alg».proof.Proof.MaskedAttention
import proofs.«106566_j6932077216063_2_alg».proof.Proof.ReferenceRows
import proofs.«106566_j6932077216063_2_alg».proof.Proof.WholeArrays
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten on the way to the idealized kernel. -/
theorem preserves : Cert.preserves_Kernel_KernelIdeal := trivial

/-- From memories that agree on the arguments both programs end with the context and the attention probabilities of
    those arguments. -/
theorem algebraic : Cert.algebraic_KernelIdeal_ReferenceIdeal := by
  intro m ρ m' ρ' _ hagree
  refine ⟨_, _, Cert.Attention.Kernel.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v15_eq _ _ _ _).trans
      ((Cert.Attention.Reference.context_eq _ _ _ _).trans ?_))
    rw [(hagree c).1, (hagree c).2.1, (hagree c).2.2.1, (hagree c).2.2.2]
  · refine (h c).2.1.trans ((Cert.ReferenceIdeal.Read.val_main_v14_eq _ _ _).trans
      ((Cert.Attention.Reference.probs_eq _ _ _).trans ?_))
    rw [(hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
